-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x128 : Shape := ⟨3, ![32, 2048, 128]⟩
abbrev S_ : Shape := ⟨0, ![]⟩

class Facts : Prop where
  bcast_S_S32x2048x128 : S_.BroadcastsInDim S32x2048x128 (![] : Fin 0 → Fin S32x2048x128.rank)
  reducesTo_S32x2048x128_S_d0_1_2 : S32x2048x128.ReducesTo [0, 1, 2] S_
  h_S_ : 0 < S_.numel

variable [Facts]

def fn {F : FTy → Type} [FloatOps F] (main_arg0 : FVec F S32x2048x128 .f32) (main_arg1 : FVec F S32x2048x128 .f32) (main_arg2 : FVec F S32x2048x128 .f32) : IVec S_ 1 :=
  let main_v0 : FVec F S32x2048x128 .f32 := Host.absf main_arg0
  let main_cst : FVec F S_ .f32 := constant S_ .f32 0x7F800000#32
  let main_v1 : FVec F S32x2048x128 .f32 := broadcastInDim S32x2048x128 ![] bcast_S_S32x2048x128 main_cst
  let main_v2 : IVec S32x2048x128 1 := cmpf .olt main_v0 main_v1
  let main_c : IVec S_ 1 := constantI S_ 1 1#1
  let main_v3 : IVec S_ 1 := (fun x v => Host.reduce IntOp.andi x v reducesTo_S32x2048x128_S_d0_1_2 h_S_) main_v2 main_c
  let main_v4 : FVec F S32x2048x128 .f32 := Host.absf main_arg1
  let main_cst_0 : FVec F S_ .f32 := constant S_ .f32 0x7F800000#32
  let main_v5 : FVec F S32x2048x128 .f32 := broadcastInDim S32x2048x128 ![] bcast_S_S32x2048x128 main_cst_0
  let main_v6 : IVec S32x2048x128 1 := cmpf .olt main_v4 main_v5
  let main_c_1 : IVec S_ 1 := constantI S_ 1 1#1
  let main_v7 : IVec S_ 1 := (fun x v => Host.reduce IntOp.andi x v reducesTo_S32x2048x128_S_d0_1_2 h_S_) main_v6 main_c_1
  let main_v8 : IVec S_ 1 := andi main_v3 main_v7
  let main_v9 : FVec F S32x2048x128 .f32 := Host.absf main_arg2
  let main_cst_2 : FVec F S_ .f32 := constant S_ .f32 0x7F800000#32
  let main_v10 : FVec F S32x2048x128 .f32 := broadcastInDim S32x2048x128 ![] bcast_S_S32x2048x128 main_cst_2
  let main_v11 : IVec S32x2048x128 1 := cmpf .olt main_v9 main_v10
  let main_c_3 : IVec S_ 1 := constantI S_ 1 1#1
  let main_v12 : IVec S_ 1 := (fun x v => Host.reduce IntOp.andi x v reducesTo_S32x2048x128_S_d0_1_2 h_S_) main_v11 main_c_3
  let main_v13 : IVec S_ 1 := andi main_v8 main_v12
  main_v13
-- ==== Kernel.lean ====
abbrev S32x2048x128 : Shape := ⟨3, ![32, 2048, 128]⟩
abbrev S32x2048x2048 : Shape := ⟨3, ![32, 2048, 2048]⟩
abbrev S1x512x128 : Shape := ⟨3, ![1, 512, 128]⟩
abbrev S1x2048x128 : Shape := ⟨3, ![1, 2048, 128]⟩
abbrev S1x512x2048 : Shape := ⟨3, ![1, 512, 2048]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S32x2048x128, .f32⟩
  | .hbm, ⟨3, _⟩ => ⟨S32x2048x128, .f32⟩
  | .hbm, ⟨4, _⟩ => ⟨S32x2048x2048, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x128, .f32⟩
  | .local _ .vmem, ⟨7, _⟩ => ⟨S1x512x128, .f32⟩
  | .local _ .vmem, ⟨8, _⟩ => ⟨S1x512x2048, .f32⟩
  | .local _ .vmem, ⟨9, _⟩ => ⟨S1x512x2048, .f32⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  shapeCasts_S512x128_S1x512x128 : S512x128.ShapeCasts S1x512x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S32x2048x128.size a
  hwx0_0 : ∀ i : grid0.Coords, EltTy.bits .f32 = 32 ∨ (Rect.block (s := S32x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x128.size a
  hwx0_1 : ∀ i : grid0.Coords, EltTy.bits .f32 = 32 ∨ (Rect.block (s := S32x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S32x2048x128.size a
  hwx0_2 : ∀ i : grid0.Coords, EltTy.bits .f32 = 32 ∨ (Rect.block (s := S32x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S32x2048x128.size a
  hwx0_3 : ∀ i : grid0.Coords, EltTy.bits .f32 = 32 ∨ (Rect.block (s := S32x2048x128) S1x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x128 : Shape := ⟨3, ![32, 2048, 128]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S32x2048x128, .f32⟩
  | .hbm, ⟨3, _⟩ => ⟨S32x2048x2048, .f32⟩
  | .hbm, ⟨4, _⟩ => ⟨S_, .f32⟩
  | .hbm, ⟨5, _⟩ => ⟨S32x2048x2048, .f32⟩
  | .hbm, ⟨6, _⟩ => ⟨S32x2048x2048, .f32⟩
  | .hbm, ⟨7, _⟩ => ⟨S_, .f32⟩
  | .hbm, ⟨8, _⟩ => ⟨S32x2048, .f32⟩
  | .hbm, ⟨9, _⟩ => ⟨S_, .f32⟩
  | .hbm, ⟨10, _⟩ => ⟨S32x2048, .f32⟩
  | .hbm, ⟨11, _⟩ => ⟨S32x2048, .f32⟩
  | .hbm, ⟨12, _⟩ => ⟨S32x2048x1, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S32x2048x2048, .f32⟩
  | .hbm, ⟨20, _⟩ => ⟨S32x2048x2048, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S32x2048x2048, .f32⟩
  | .hbm, ⟨25, _⟩ => ⟨S32x2048x2048, .i1⟩
  | .hbm, ⟨26, _⟩ => ⟨S32x2048x2048, .f32⟩
  | .hbm, ⟨27, _⟩ => ⟨S32x2048x2048, .f32⟩
  | .hbm, ⟨28, _⟩ => ⟨S32x2048x128, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x128_S32x2048x128_S32x2048x2048_2_2_1_1_0_0_wf : DotDims.WF S32x2048x128 S32x2048x128 S32x2048x2048 [2] [2] [1] [1] [0] [0]
  dot_S32x2048x2048_S32x2048x128_S32x2048x128_2_1_1_2_0_0_wf : DotDims.WF S32x2048x2048 S32x2048x128 S32x2048x128 [2] [1] [1] [2] [0] [0]

variable [Facts₀]

def dot_S32x2048x128_S32x2048x128_S32x2048x2048_2_2_1_1_0_0 : DotDims S32x2048x128 S32x2048x128 S32x2048x2048 where
  lhsContracting := [2]
  rhsContracting := [2]
  lhsNonContracting := [1]
  rhsNonContracting := [1]
  lhsBatch := [0]
  rhsBatch := [0]
  wf := dot_S32x2048x128_S32x2048x128_S32x2048x2048_2_2_1_1_0_0_wf
def dot_S32x2048x2048_S32x2048x128_S32x2048x128_2_1_1_2_0_0 : DotDims S32x2048x2048 S32x2048x128 S32x2048x128 where
  lhsContracting := [2]
  rhsContracting := [1]
  lhsNonContracting := [1]
  rhsNonContracting := [2]
  lhsBatch := [0]
  rhsBatch := [0]
  wf := dot_S32x2048x2048_S32x2048x128_S32x2048x128_2_1_1_2_0_0_wf

class Facts : Prop extends Facts₀ where

variable [Facts]
-- ==== Proof.Spec.lean ====
/-
  Winner-take-all attention, one query row at a time, on the extended reals.

  For a query row `q` (128 numbers) and keys `K` (2048 rows of 128) the scores are `s k = (Σ_d q d · K k d) / √128`.
  The row's softmax is `a k = exp (s k − max s) / Σ_k' exp (s k' − max s)`; winner-take-all keeps an entry of `a`
  where it equals the row's largest entry and puts zero elsewhere; the output row is `Σ_k w k · V k d`.
  `attnOf` and `outOf` are these over whole [32, 2048, 128] arrays: batch `b`, query row `r`.

  Two small facts join the two ways the programs spell the mask and the running maximum: a maximum taken again
  against the value it started from is itself, and `x · [x = r]` is `x` where `x = r` and zero elsewhere — true of
  every extended real, the infinities included, since `x · 1 = x` and `x · 0 = 0` there.
-/
import Idealize.ShloMosaic.PureOps.Ideal
import Idealize.ShloMosaic.PureOps.Ideal.Laws
import Idealize.ShloMosaic.Lib.ValueIdx

noncomputable section

open scoped BigOperators

namespace Cert.Wta

open Idealize.ShloMosaic Idealize.ShloMosaic.ValueIdx

/-- `√128` as the binary32 number both programs divide the scores by. -/
def temper : EReal := Ideal.ofBits .f32 0x413504F3#32

/-- What a running maximum starts from: binary32 minus infinity. -/
def seed : EReal := Ideal.ofBits .f32 0xFF800000#32

/-- The largest of a row's 2048 entries, taken from `seed`. -/
def rowMax (s : Fin 2048 → EReal) : EReal := (Finset.univ : Finset (Fin 2048)).fold max seed s

/-- A row's entries with the row's maximum subtracted, exponentiated. -/
def expShift (s : Fin 2048 → EReal) (k : Fin 2048) : EReal := Ideal.exp (s k - rowMax s)

/-- Softmax of a row at entry `k`. -/
def soft (s : Fin 2048 → EReal) (k : Fin 2048) : EReal := Ideal.div (expShift s k) (∑ k' : Fin 2048, expShift s k')

/-- Winner take all: the softmax entry where it is the row's largest, zero elsewhere. -/
def wta (s : Fin 2048 → EReal) (k : Fin 2048) : EReal := if soft s k = rowMax (soft s) then soft s k else 0

/-- The scaled scores of query row `q` against the keys `K`. -/
def score (q : Fin 128 → EReal) (K : Fin 2048 → Fin 128 → EReal) (k : Fin 2048) : EReal :=
  Ideal.div (∑ d : Fin 128, q d * K k d) temper

/-- The attention weights of one query row. -/
def attnRow (q : Fin 128 → EReal) (K : Fin 2048 → Fin 128 → EReal) : Fin 2048 → EReal := wta (score q K)

/-- The output of one query row: its weights times the values. -/
def outRow (q : Fin 128 → EReal) (K V : Fin 2048 → Fin 128 → EReal) (d : Fin 128) : EReal :=
  ∑ k : Fin 2048, attnRow q K k * V k d

theorem outRow_congr {q q' : Fin 128 → EReal} {K K' V V' : Fin 2048 → Fin 128 → EReal} {d d' : Fin 128}
    (hq : q = q') (hK : K = K') (hV : V = V') (hd : d = d') : outRow q K V d = outRow q' K' V' d' := by
  subst hq hK hV hd; rfl

theorem attnRow_congr {q q' : Fin 128 → EReal} {K K' : Fin 2048 → Fin 128 → EReal} {k k' : Fin 2048}
    (hq : q = q') (hK : K = K') (hk : k = k') : attnRow q K k = attnRow q' K' k' := by
  subst hq hK hk; rfl

/-! ## Over whole arrays -/

/-- Row `r` of batch `b` of a [32, 2048, 128] array. -/
def rowOf (X : (⟨3, ![32, 2048, 128]⟩ : Shape).Idx → EReal) (b : Fin 32) (r : Fin 2048) : Fin 128 → EReal :=
  fun d => X (ix3 b r d)

/-- Batch `b` of a [32, 2048, 128] array as a matrix. -/
def matOf (X : (⟨3, ![32, 2048, 128]⟩ : Shape).Idx → EReal) (b : Fin 32) : Fin 2048 → Fin 128 → EReal :=
  fun k d => X (ix3 b k d)

/-- The attention weights array: entry (b, r, k). -/
def attnOf (Q K : (⟨3, ![32, 2048, 128]⟩ : Shape).Idx → EReal) : (⟨3, ![32, 2048, 2048]⟩ : Shape).Idx → EReal :=
  fun i => attnRow (rowOf Q (i 0) (i 1)) (matOf K (i 0)) (i 2)

/-- The output array: entry (b, r, d). -/
def outOf (Q K V : (⟨3, ![32, 2048, 128]⟩ : Shape).Idx → EReal) : (⟨3, ![32, 2048, 128]⟩ : Shape).Idx → EReal :=
  fun i => outRow (rowOf Q (i 0) (i 1)) (matOf K (i 0)) (matOf V (i 0)) (i 2)

/-- `attnOf` at an index whose coordinates are (b, r, k). -/
theorem attnOf_at (Q K : (⟨3, ![32, 2048, 128]⟩ : Shape).Idx → EReal) (i : (⟨3, ![32, 2048, 2048]⟩ : Shape).Idx)
    (b : Fin 32) (r k : Fin 2048) (h0 : (i 0).val = b.val) (h1 : (i 1).val = r.val) (h2 : (i 2).val = k.val) :
    attnOf Q K i = attnRow (rowOf Q b r) (matOf K b) k := by
  have e : i = ix3 b r k := funext fun a => Fin.ext (by
    match a with
    | ⟨0, _⟩ => exact h0
    | ⟨1, _⟩ => exact h1
    | ⟨2, _⟩ => exact h2)
  subst e
  rfl

/-- `outOf` at an index whose coordinates are (b, r, d). -/
theorem outOf_at (Q K V : (⟨3, ![32, 2048, 128]⟩ : Shape).Idx → EReal) (i : (⟨3, ![32, 2048, 128]⟩ : Shape).Idx)
    (b : Fin 32) (r : Fin 2048) (d : Fin 128) (h0 : (i 0).val = b.val) (h1 : (i 1).val = r.val) (h2 : (i 2).val = d.val) :
    outOf Q K V i = outRow (rowOf Q b r) (matOf K b) (matOf V b) d := by
  have e : i = ix3 b r d := funext fun a => Fin.ext (by
    match a with
    | ⟨0, _⟩ => exact h0
    | ⟨1, _⟩ => exact h1
    | ⟨2, _⟩ => exact h2)
  subst e
  rfl

/-! ## The two spellings of the maximum and of the mask -/

/-- A maximum folded from `b` is at least `b`, so taking it again against `b` changes nothing. -/
theorem max_fold_self {ι : Type} (s : Finset ι) (b : EReal) (f : ι → EReal) : max b (s.fold max b f) = s.fold max b f :=
  max_eq_right ((Finset.le_fold_max b).mpr (Or.inl le_rfl))

theorem max_seed_rowMax (s : Fin 2048 → EReal) : max seed (rowMax s) = rowMax s := max_fold_self _ _ _

/-- Selecting `x` where `x = r`, else `z`. -/
theorem select_eq_ite (x r z : EReal) : Scalar.select (Ideal.cmp .oeq x r) x z = if x = r then x else z := by
  unfold Scalar.select Ideal.cmp
  by_cases h : x = r
  · simp [h]
  · simp [h]

/-- Multiplying `x` by the indicator of `x = r` (the comparison's bit read as a number). -/
theorem mul_indicator (x r : EReal) : x * (((Ideal.cmp .oeq x r).toNat : ℝ) : EReal) = if x = r then x else 0 := by
  unfold Ideal.cmp
  by_cases h : x = r
  · simp [h]
  · simp [h]

end Cert.Wta

end
-- ==== Proof.LibRowReduce.lean ====
/-
  A row's maximum and a row's sum, read at the row, on the extended reals.

  * A reduction of an `[a, b]` array over its second axis reads, at row `r`, the entries `(r, k)`, `k : Fin b`:
    a maximum as the fold of `max` from the starting value over them, a sum as their sum.
  * A host reduction of an `[a, b, c]` array over its last axis by `max` reads, at `(p, r)`, the fold of `max` from the
    initial value over the entries `(p, r, k)`, `k : Fin c`.

  Both folds are over `Finset.univ` of the reduced axis, so a kernel's row maximum and a reference's meet as one term.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row maximum: the fold of `max` from the starting value over the row's entries. -/
theorem multiReduction_max_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ X acc h hφ hacc (ix1 r)
      = (Finset.univ : Finset (Fin b)).fold max (Ideal.ofBits φ acc) (fun k => X (ix2 r k)) := by
  refine (Ideal.multiReduction_maximumf_single X acc h hφ hacc (ix1 r)).trans ?_
  have e : (X ∘ h.lift (ix1 r)) = fun k : Fin b => X (ix2 r k) := funext fun k => congrArg X (lift_row h r k)
  rw [e]
  rfl

/-- A row sum: the sum of the row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin b, X (ix2 r k) := by
  refine (Ideal.multiReduction_add_single X acc h hφ hacc (ix1 r)).trans ?_
  exact Finset.sum_congr rfl fun k _ => congrArg X (lift_row h r k)

/-- Over result index `(p, r)`, the source index with `k` on the reduced last axis is `(p, r, k)`. -/
theorem lift_last3 {a b c : ℕ} (h : (⟨3, ![a, b, c]⟩ : Shape).Reduces [2] ⟨2, ![a, b]⟩) (p : Fin a) (r : Fin b) (k : Fin c) :
    h.lift (ix2 p r) k = ix3 p r k := by
  funext d
  apply Fin.ext
  match d with
  | ⟨0, _⟩ => rfl
  | ⟨1, _⟩ => rfl
  | ⟨2, _⟩ => rfl

/-- A host maximum over the last axis of a rank-3 array: the fold of `max` from the initial value over that axis. -/
theorem hostReduce_max_last3 {a b c : ℕ} {φ : FTy} {u : Shape} (X : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) X init h' hu (ix2 p r)
      = (Finset.univ : Finset (Fin c)).fold max (init (Shape.Idx.first hu)) (fun k => X (ix3 p r k)) := by
  refine (Host.reduce_eq_fold_single (FloatOps.maximumf (F := Ideal) (φ := φ)) X init h' h hu (ix2 p r)).trans ?_
  have e : (X ∘ h.lift (ix2 p r)) = fun k : Fin c => X (ix3 p r k) := funext fun k => congrArg X (lift_last3 h p r k)
  rw [e]
  rfl

end Cert.Lib

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelDots.lean ====
/-
  The kernel's two matrix products read at an entry, on the extended reals.

  * Scores: a [512, 128] block of query rows against a [2048, 128] block of key rows, both contracted on their
    second axis: entry (r, k) is `Σ_d l (r, d) · m (k, d)`.
  * Output: the [512, 2048] weights against the [2048, 128] values, the weights contracted on their second axis and
    the values on their first: entry (r, d) is `Σ_k w (r, k) · v (k, d)`.

  Each is the product into a zero accumulator read as the sum over its one contraction axis, the contraction index
  renamed to that axis's coordinate.
-/
import proofs.«169759_j15857019257096_2_alg».proof.KernelIdeal
import proofs.«169759_j15857019257096_2_alg».proof.Proof.Gen.KernelIdeal
import Idealize.ShloMosaic.PureOps.Ideal.Laws
import Idealize.ShloMosaic.Lib.ValueIdx

noncomputable section

open scoped BigOperators

namespace Cert.KernelIdeal.Dots

open Cert.KernelIdeal Idealize.ShloMosaic Idealize.ShloMosaic.ValueIdx

/-! ## Scores: rows against rows -/

theorem qk_lhs0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem qk_lhs1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem qk_rhs0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem qk_rhs1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- The score product at (r, k): the sum over the 128 features of query row `r` times key row `k`. -/
theorem qk_apply {φ₁ φ₂ : FTy} (l : FVec Ideal S512x128 φ₁) (m : FVec Ideal S2048x128 φ₂) (r : Fin 512) (k : Fin 2048) :
    matmul dot_S512x128_S2048x128_S512x2048_1_1_0_0_n_n none l m (constant S512x2048 .f32 0x00000000#32) (ix2 r k)
      = ∑ d : Fin 128, l (ix2 r d) * m (ix2 k d) := by
  refine (Ideal.matmul_constant_zero_apply dot_S512x128_S2048x128_S512x2048_1_1_0_0_n_n none l m (ix2 r k)).trans ?_
  rw [← Equiv.sum_comp (contrEquiv1 dot_S512x128_S2048x128_S512x2048_1_1_0_0_n_n 128 rfl rfl).symm]
  refine Finset.sum_congr rfl fun d _ => ?_
  have hk := contrEquiv1_symm_val dot_S512x128_S2048x128_S512x2048_1_1_0_0_n_n 128 rfl rfl d
  have el : dot_S512x128_S2048x128_S512x2048_1_1_0_0_n_n.lhsIdx (ix2 r k) ((contrEquiv1 dot_S512x128_S2048x128_S512x2048_1_1_0_0_n_n 128 rfl rfl).symm d) = ix2 r d := funext fun a => Fin.ext (by
    match a with
    | ⟨0, _⟩ => exact qk_lhs0 _ _
    | ⟨1, _⟩ => exact (qk_lhs1 _ _).trans hk)
  have er : dot_S512x128_S2048x128_S512x2048_1_1_0_0_n_n.rhsIdx (ix2 r k) ((contrEquiv1 dot_S512x128_S2048x128_S512x2048_1_1_0_0_n_n 128 rfl rfl).symm d) = ix2 k d := funext fun a => Fin.ext (by
    match a with
    | ⟨0, _⟩ => exact qk_rhs0 _ _
    | ⟨1, _⟩ => exact (qk_rhs1 _ _).trans hk)
  rw [el, er]

/-! ## Output: rows against columns -/

theorem av_lhs0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem av_lhs1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem av_rhs0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem av_rhs1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The output product at (r, d): the sum over the 2048 keys of weight (r, k) times value (k, d). -/
theorem av_apply {φ₁ φ₂ : FTy} (w : FVec Ideal S512x2048 φ₁) (v : FVec Ideal S2048x128 φ₂) (r : Fin 512) (d : Fin 128) :
    matmul dot_S512x2048_S2048x128_S512x128_1_0_0_1_n_n none w v (constant S512x128 .f32 0x00000000#32) (ix2 r d)
      = ∑ k : Fin 2048, w (ix2 r k) * v (ix2 k d) := by
  refine (Ideal.matmul_constant_zero_apply dot_S512x2048_S2048x128_S512x128_1_0_0_1_n_n none w v (ix2 r d)).trans ?_
  rw [← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 r d) ((contrEquiv1 dot_S512x2048_S2048x128_S512x128_1_0_0_1_n_n 2048 rfl rfl).symm k) = ix2 r k := funext fun a => Fin.ext (by
    match a with
    | ⟨0, _⟩ => exact av_lhs0 _ _
    | ⟨1, _⟩ => exact (av_lhs1 _ _).trans hk)
  have er : dot_S512x2048_S2048x128_S512x128_1_0_0_1_n_n.rhsIdx (ix2 r d) ((contrEquiv1 dot_S512x2048_S2048x128_S512x128_1_0_0_1_n_n 2048 rfl rfl).symm k) = ix2 k d := funext fun a => Fin.ext (by
    match a with
    | ⟨0, _⟩ => exact (av_rhs0 _ _).trans hk
    | ⟨1, _⟩ => exact av_rhs1 _ _)
  rw [el, er]

end Cert.KernelIdeal.Dots

end
-- ==== Proof.KernelRow.lean ====
/-
  What the kernel body computes, read one entry at a time, on the extended reals.

  For a block `P0` of 512 query rows and whole blocks `P1`, `P2` of the 2048 key and value rows of one batch:
  * the masked weights at (r, k) are the winner-take-all softmax row of query row `r` against the keys, at `k`;
  * the output at (r, d) is `Σ_k weight (r, k) · value (k, d)`.

  The body's value is taken apart into its stages, each a function of a [512, 2048] matrix `X`: the row maximum spread
  over the rows (`spreadMax`), the row sum likewise (`spreadSum`), the shifted exponentials, the softmax, the mask.
  The body is their composition applied to the scores (`pay1_eq`, by unfolding), and each stage is read at an entry
  (r, k) as the matching row function of row `r` of `X`: a row's maximum or sum, cast to a column and broadcast back
  over the row, is that maximum or sum at every entry of the row; the rest is entry by entry.
-/
import proofs.«169759_j15857019257096_2_alg».proof.Proof.Gen.KernelIdeal.Skeleton
import proofs.«169759_j15857019257096_2_alg».proof.Proof.Spec
import proofs.«169759_j15857019257096_2_alg».proof.Proof.LibRowReduce
import proofs.«169759_j15857019257096_2_alg».proof.Proof.LibKeepdims
import proofs.«169759_j15857019257096_2_alg».proof.Proof.KernelDots
import Idealize.ShloMosaic.Lib.Pipeline.Value
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.Wta

/-! ## The stages -/

/-- Each row's maximum, at every entry of the row. -/
def spreadMax (X : FVec Ideal S512x2048 .f32) : FVec Ideal S512x2048 .f32 :=
  broadcastTo S512x2048 (shapeCast S512x1 (multiReduction .maximumf [1] S512 X 0xFF800000#32 reduces_S512x2048_S512 (.inl rfl) rfl)
    shapeCasts_S512_S512x1) broadcasts_S512x1_S512x2048

/-- Each row's sum, at every entry of the row. -/
def spreadSum (X : FVec Ideal S512x2048 .f32) : FVec Ideal S512x2048 .f32 :=
  broadcastTo S512x2048 (shapeCast S512x1 (multiReduction .add [1] S512 X 0x00000000#32 reduces_S512x2048_S512 (.inl rfl) rfl)
    shapeCasts_S512_S512x1) broadcasts_S512x1_S512x2048

/-- The entries with their row's maximum subtracted, exponentiated. -/
def expStage (X : FVec Ideal S512x2048 .f32) : FVec Ideal S512x2048 .f32 := exp (subf X (spreadMax X))

/-- Each row's softmax. -/
def softStage (X : FVec Ideal S512x2048 .f32) : FVec Ideal S512x2048 .f32 := divf (expStage X) (spreadSum (expStage X))

/-- A matrix's entries kept where they are their row's largest, zero elsewhere. -/
def maskStage (A : FVec Ideal S512x2048 .f32) : FVec Ideal S512x2048 .f32 :=
  select (cmpf .oeq A (spreadMax A)) A (broadcast S512x2048 (Scalar.ofBits .f32 0x00000000#32))

/-- The scaled scores of the query block's rows against the key block's rows. -/
def scoreStage (P0 : Vec Ideal S1x512x128 .f32) (P1 : Vec Ideal S1x2048x128 .f32) : FVec Ideal S512x2048 .f32 :=
  divf (matmul dot_S512x128_S2048x128_S512x2048_1_1_0_0_n_n none
      (truncf .bf16 (shapeCast S512x128 P0 shapeCasts_S1x512x128_S512x128) bitsLt_bf16_f32)
      (truncf .bf16 (shapeCast S2048x128 P1 shapeCasts_S1x2048x128_S2048x128) bitsLt_bf16_f32)
      (constant S512x2048 .f32 0x00000000#32))
    (broadcast S512x2048 (Scalar.ofBits .f32 0x413504F3#32))

/-- The body's masked weights are the mask of the softmax of the scores. -/
theorem pay1_eq (P0 : Vec Ideal S1x512x128 .f32) (P1 : Vec Ideal S1x2048x128 .f32) :
    k0_pay1 P0 P1 = maskStage (softStage (scoreStage P0 P1)) := rfl

/-! ## Each stage at an entry -/

/-- A row of a [512, 2048] matrix. -/
abbrev rowAt (X : FVec Ideal S512x2048 .f32) (r : Fin 512) : Fin 2048 → EReal := fun k' => X (ix2 r k')

theorem spreadMax_apply (X : FVec Ideal S512x2048 .f32) (r : Fin 512) (k : Fin 2048) :
    spreadMax X (ix2 r k) = rowMax (rowAt X r) := by
  unfold spreadMax
  refine (Cert.Lib.broadcastTo_a1_ab_apply _ broadcasts_S512x1_S512x2048 r k).trans ?_
  refine (Cert.Lib.shapeCast_a_a1_apply _ shapeCasts_S512_S512x1 r 0).trans ?_
  exact Cert.Lib.multiReduction_max_row X _ reduces_S512x2048_S512 _ _ r

theorem spreadSum_apply (X : FVec Ideal S512x2048 .f32) (r : Fin 512) (k : Fin 2048) :
    spreadSum X (ix2 r k) = ∑ k' : Fin 2048, X (ix2 r k') := by
  unfold spreadSum
  refine (Cert.Lib.broadcastTo_a1_ab_apply _ broadcasts_S512x1_S512x2048 r k).trans ?_
  refine (Cert.Lib.shapeCast_a_a1_apply _ shapeCasts_S512_S512x1 r 0).trans ?_
  exact Cert.Lib.multiReduction_add_row X _ reduces_S512x2048_S512 _ _ r

theorem expStage_apply (X : FVec Ideal S512x2048 .f32) (r : Fin 512) (k : Fin 2048) :
    expStage X (ix2 r k) = expShift (rowAt X r) k := by
  show Ideal.exp (X (ix2 r k) - spreadMax X (ix2 r k)) = _
  rw [spreadMax_apply]
  rfl

theorem softStage_apply (X : FVec Ideal S512x2048 .f32) (r : Fin 512) (k : Fin 2048) :
    softStage X (ix2 r k) = soft (rowAt X r) k := by
  show Ideal.div (expStage X (ix2 r k)) (spreadSum (expStage X) (ix2 r k)) = _
  rw [spreadSum_apply, expStage_apply]
  simp only [expStage_apply]
  rfl

theorem maskStage_apply (A : FVec Ideal S512x2048 .f32) (r : Fin 512) (k : Fin 2048) :
    maskStage A (ix2 r k) = if A (ix2 r k) = rowMax (rowAt A r) then A (ix2 r k) else 0 := by
  show Scalar.select (Ideal.cmp .oeq (A (ix2 r k)) (spreadMax A (ix2 r k))) (A (ix2 r k)) (Ideal.ofBits .f32 0x00000000#32) = _
  rw [spreadMax_apply, select_eq_ite, Ideal.ofBits_zero_f32]

set_option backward.isDefEq.respectTransparency.types false in
theorem scoreStage_apply (P0 : Vec Ideal S1x512x128 .f32) (P1 : Vec Ideal S1x2048x128 .f32) (r : Fin 512) (k : Fin 2048) :
    scoreStage P0 P1 (ix2 r k) = score (fun d => P0 (ix3 (0 : Fin 1) r d)) (fun k' d => P1 (ix3 (0 : Fin 1) k' d)) k := by
  unfold scoreStage score temper
  refine congrArg (fun x => Ideal.div x (Ideal.ofBits .f32 0x413504F3#32)) ?_
  refine (Dots.qk_apply _ _ r k).trans (Finset.sum_congr rfl fun d _ => ?_)
  show shapeCast S512x128 P0 shapeCasts_S1x512x128_S512x128 (ix2 r d) * shapeCast S2048x128 P1 shapeCasts_S1x2048x128_S2048x128 (ix2 k d) = _
  rw [shapeCast_1ab_ab_apply P0 shapeCasts_S1x512x128_S512x128 r d, shapeCast_1ab_ab_apply P1 shapeCasts_S1x2048x128_S2048x128 k d]

/-! ## The payloads at an entry -/

/-- THE MASKED WEIGHTS at (r, k): the winner-take-all softmax row of query row `r` against the key rows, at `k`. -/
theorem pay1_apply (P0 : Vec Ideal S1x512x128 .f32) (P1 : Vec Ideal S1x2048x128 .f32) (r : Fin 512) (k : Fin 2048) :
    k0_pay1 P0 P1 (ix2 r k) = attnRow (fun d => P0 (ix3 (0 : Fin 1) r d)) (fun k' d => P1 (ix3 (0 : Fin 1) k' d)) k := by
  rw [pay1_eq, maskStage_apply, softStage_apply]
  have hrow : rowAt (softStage (scoreStage P0 P1)) r = soft (rowAt (scoreStage P0 P1) r) :=
    funext fun k' => softStage_apply _ r k'
  have hs : rowAt (scoreStage P0 P1) r = score (fun d => P0 (ix3 (0 : Fin 1) r d)) (fun k' d => P1 (ix3 (0 : Fin 1) k' d)) :=
    funext fun k' => scoreStage_apply P0 P1 r k'
  rw [hrow, hs]
  rfl

/-- THE OUTPUT at (r, d): the weights of query row `r` times column `d` of the values. -/
theorem pay2_apply (P0 : Vec Ideal S1x512x128 .f32) (P1 P2 : Vec Ideal S1x2048x128 .f32) (u : Fin 1) (r : Fin 512) (d : Fin 128) :
    k0_pay2 P0 P1 P2 (ix3 u r d)
      = outRow (fun d' => P0 (ix3 (0 : Fin 1) r d')) (fun k d' => P1 (ix3 (0 : Fin 1) k d')) (fun k d' => P2 (ix3 (0 : Fin 1) k d')) d := by
  unfold k0_pay2 outRow
  refine (shapeCast_ab_1ab_apply _ shapeCasts_S512x128_S1x512x128 u r d).trans ?_
  refine (Dots.av_apply _ _ r d).trans (Finset.sum_congr rfl fun k _ => ?_)
  show k0_pay1 P0 P1 (ix2 r k) * shapeCast S2048x128 P2 shapeCasts_S1x2048x128_S2048x128 (ix2 k d) = _
  rw [pay1_apply, shapeCast_1ab_ab_apply P2 shapeCasts_S1x2048x128_S2048x128 k d]

/-- THE WEIGHTS AS STORED at (r, k): the masked weights, the leading unit axis put back. -/
theorem pay3_apply (P0 : Vec Ideal S1x512x128 .f32) (P1 : Vec Ideal S1x2048x128 .f32) (u : Fin 1) (r : Fin 512) (k : Fin 2048) :
    k0_pay3 P0 P1 (ix3 u r k) = attnRow (fun d => P0 (ix3 (0 : Fin 1) r d)) (fun k' d => P1 (ix3 (0 : Fin 1) k' d)) k := by
  unfold k0_pay3
  exact (shapeCast_ab_1ab_apply _ shapeCasts_S512x2048_S1x512x2048 u r k).trans (pay1_apply P0 P1 r k)

end Cert.KernelIdeal.Row

end
-- ==== Proof.Blocks.lean ====
/-
  From what each grid point writes back to the two result arrays.

  The grid has 32 × 4 points: point (b, qt) handles query rows 512·qt … 512·qt + 511 of batch `b`. Its query block is
  those rows of the queries; its key and value blocks are all 2048 rows of batch `b`; it writes back the same rows
  of the output (a [1, 512, 128] block) and of the weights (a [1, 512, 2048] block).
  So entry (u, r, ·) of a block is entry (b, 512·qt + r, ·) of the array, and what point (b, qt) writes back is the
  block of the whole-array functions `outOf` / `attnOf` at its place: a query row's output and weights depend on that
  row of the queries and on the batch's keys and values only. The blocks tile both arrays (row `q` lies in block
  `q / 512`), so after the run each array is its whole-array function of the arguments.
-/
import proofs.«169759_j15857019257096_2_alg».proof.Proof.Gen.KernelIdeal.Value
import proofs.«169759_j15857019257096_2_alg».proof.Proof.KernelRow
import Idealize.ShloMosaic.Lib.Pipeline.Value

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.Wta
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## Where the blocks sit -/

/-- The printed index maps, decided over the grid: every window's batch index is the output's; the query and weights
    blocks move with the output's row block; the key and value blocks stay at row block 0; no window is cut on its
    last axis; and the output's indices are in range. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_4.index t (0 : Fin 3) = win0_3.index t (0 : Fin 3) ∧ win0_4.index t (1 : Fin 3) = win0_3.index t (1 : Fin 3) ∧ win0_4.index t (2 : Fin 3) = 0
    ∧ win0_3.index t (2 : Fin 3) = 0 ∧ win0_3.index t (0 : Fin 3) ≤ 31 ∧ win0_3.index t (1 : Fin 3) ≤ 3 :=
  (by decide +kernel : ∀ t : Fin grid0.N, _)

/-- Every (batch, row block) is some point's. -/
theorem idx_onto3 : ∀ (q0 : Fin 32) (q1 : Fin 4), ∃ t : Fin cfg0.N, win0_3.index t = ![q0.val, q1.val, 0] :=
  (by decide +kernel : ∀ (q0 : Fin 32) (q1 : Fin 4), ∃ t : Fin grid0.N, win0_3.index t = ![q0.val, q1.val, 0])

theorem idx_onto4 : ∀ (q0 : Fin 32) (q1 : Fin 4), ∃ t : Fin cfg0.N, win0_4.index t = ![q0.val, q1.val, 0] :=
  (by decide +kernel : ∀ (q0 : Fin 32) (q1 : Fin 4), ∃ t : Fin grid0.N, win0_4.index t = ![q0.val, q1.val, 0])

/-! ## The input blocks as entries of the arguments -/

/-- An entry of the query block at point `t` is the queries' entry at block index × block size + its coordinate. -/
theorem iblk0_at (c : Dev nD) (t : Fin cfg0.N) (x : S1x512x128.Idx) (i : S32x2048x128.Idx)
    (h0 : (i 0).val = win0_0.index t (0 : Fin 3) * 1 + (x 0).val)
    (h1 : (i 1).val = win0_0.index t (1 : Fin 3) * 512 + (x 1).val)
    (h2 : (i 2).val = win0_0.index t (2 : Fin 3) * 128 + (x 2).val) :
    (iblk m c 0 t : Vec Ideal S1x512x128 .f32) x = (V m c main_arg0 : S32x2048x128.Idx → Elt Ideal .f32) i := by
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * (x 0).val = (i 0).val; omega
  | ⟨1, _⟩ => show win0_0.index t (1 : Fin 3) * 512 + 1 * (x 1).val = (i 1).val; omega
  | ⟨2, _⟩ => show win0_0.index t (2 : Fin 3) * 128 + 1 * (x 2).val = (i 2).val; omega

/-- An entry of the key block at point `t`. -/
theorem iblk1_at (c : Dev nD) (t : Fin cfg0.N) (x : S1x2048x128.Idx) (i : S32x2048x128.Idx)
    (h0 : (i 0).val = win0_1.index t (0 : Fin 3) * 1 + (x 0).val)
    (h1 : (i 1).val = win0_1.index t (1 : Fin 3) * 2048 + (x 1).val)
    (h2 : (i 2).val = win0_1.index t (2 : Fin 3) * 128 + (x 2).val) :
    (iblk m c 1 t : Vec Ideal S1x2048x128 .f32) x = (V m c main_arg1 : S32x2048x128.Idx → Elt Ideal .f32) i := by
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * (x 0).val = (i 0).val; omega
  | ⟨1, _⟩ => show win0_1.index t (1 : Fin 3) * 2048 + 1 * (x 1).val = (i 1).val; omega
  | ⟨2, _⟩ => show win0_1.index t (2 : Fin 3) * 128 + 1 * (x 2).val = (i 2).val; omega

/-- An entry of the value block at point `t`. -/
theorem iblk2_at (c : Dev nD) (t : Fin cfg0.N) (x : S1x2048x128.Idx) (i : S32x2048x128.Idx)
    (h0 : (i 0).val = win0_2.index t (0 : Fin 3) * 1 + (x 0).val)
    (h1 : (i 1).val = win0_2.index t (1 : Fin 3) * 2048 + (x 1).val)
    (h2 : (i 2).val = win0_2.index t (2 : Fin 3) * 128 + (x 2).val) :
    (iblk m c 2 t : Vec Ideal S1x2048x128 .f32) x = (V m c main_arg2 : S32x2048x128.Idx → Elt Ideal .f32) i := by
  unfold iblk
  rw [View.read_apply]
  show V m c main_arg2 _ = V m c main_arg2 _
  refine congrArg (V m c main_arg2) (funext fun a => Fin.ext ?_)
  match a with
  | ⟨0, _⟩ => show win0_2.index t (0 : Fin 3) * 1 + 1 * (x 0).val = (i 0).val; omega
  | ⟨1, _⟩ => show win0_2.index t (1 : Fin 3) * 2048 + 1 * (x 1).val = (i 1).val; omega
  | ⟨2, _⟩ => show win0_2.index t (2 : Fin 3) * 128 + 1 * (x 2).val = (i 2).val; omega

/-! ## What a point writes back -/

/-- WHAT POINT `t` WRITES BACK TO THE OUTPUT is its block of `outOf` of the arguments. -/
theorem flushed3_eq (c : Dev nD) (t : Fin cfg0.N) :
    (dats m 0 c).flushed 3 t = ((cfg0.win 3).blk t).view.read (Elt Ideal)
      (outOf (V m c main_arg0) (V m c main_arg1) (V m c main_arg2)) := by
  rw [Value.flushed3]
  unfold out0_3
  rw [View.canon_unit_zero hz]
  simp only [View.ld_unit_zero (S := S1x512x128) hz, View.ld_unit_zero (S := S1x2048x128) hz]
  obtain ⟨e00, e01, e02, e10, e11, e12, e20, e21, e22, e40, e41, e42, e32, b30, b31⟩ := idx_facts t
  funext j
  obtain ⟨u, r, d, rfl⟩ : ∃ (u : Fin 1) (r : Fin 512) (d : Fin 128), j = ix3 u r d := ⟨j 0, j 1, j 2, eq_ix3 j⟩
  show k0_pay2 (iblk m c 0 t) (iblk m c 1 t) (iblk m c 2 t) (ix3 u r d)
      = outOf (V m c main_arg0) (V m c main_arg1) (V m c main_arg2) (((cfg0.win 3).blk t).view.emb (ix3 u r d))
  have hu : u.val = 0 := by omega
  have hr : r.val < 512 := r.isLt
  have hb : win0_3.index t (0 : Fin 3) < 32 := by omega
  have hq : win0_3.index t (1 : Fin 3) * 512 + r.val < 2048 := by omega
  refine (Row.pay2_apply (iblk m c 0 t) (iblk m c 1 t) (iblk m c 2 t) u r d).trans ?_
  refine Eq.trans ?_ (outOf_at _ _ _ _ ⟨win0_3.index t (0 : Fin 3), hb⟩ ⟨win0_3.index t (1 : Fin 3) * 512 + r.val, hq⟩ d ?_ ?_ ?_).symm
  · refine outRow_congr (funext fun d' => ?_) (funext fun k => funext fun d' => ?_) (funext fun k => funext fun d' => ?_) rfl
    · refine iblk0_at m c t (ix3 (0 : Fin 1) r d') (ix3 ⟨win0_3.index t (0 : Fin 3), hb⟩ ⟨win0_3.index t (1 : Fin 3) * 512 + r.val, hq⟩ d') ?_ ?_ ?_
      · show win0_3.index t (0 : Fin 3) = win0_0.index t (0 : Fin 3) * 1 + 0; omega
      · show win0_3.index t (1 : Fin 3) * 512 + r.val = win0_0.index t (1 : Fin 3) * 512 + r.val; omega
      · show d'.val = win0_0.index t (2 : Fin 3) * 128 + d'.val; omega
    · refine iblk1_at m c t (ix3 (0 : Fin 1) k d') (ix3 ⟨win0_3.index t (0 : Fin 3), hb⟩ k d') ?_ ?_ ?_
      · show win0_3.index t (0 : Fin 3) = win0_1.index t (0 : Fin 3) * 1 + 0; omega
      · show k.val = win0_1.index t (1 : Fin 3) * 2048 + k.val; omega
      · show d'.val = win0_1.index t (2 : Fin 3) * 128 + d'.val; omega
    · refine iblk2_at m c t (ix3 (0 : Fin 1) k d') (ix3 ⟨win0_3.index t (0 : Fin 3), hb⟩ k d') ?_ ?_ ?_
      · show win0_3.index t (0 : Fin 3) = win0_2.index t (0 : Fin 3) * 1 + 0; omega
      · show k.val = win0_2.index t (1 : Fin 3) * 2048 + k.val; omega
      · show d'.val = win0_2.index t (2 : Fin 3) * 128 + d'.val; omega
  · show win0_3.index t (0 : Fin 3) * 1 + 1 * u.val = win0_3.index t (0 : Fin 3); omega
  · show win0_3.index t (1 : Fin 3) * 512 + 1 * r.val = win0_3.index t (1 : Fin 3) * 512 + r.val; omega
  · show win0_3.index t (2 : Fin 3) * 128 + 1 * d.val = d.val; omega

/-- WHAT POINT `t` WRITES BACK TO THE WEIGHTS is its block of `attnOf` of the arguments. -/
theorem flushed4_eq (c : Dev nD) (t : Fin cfg0.N) :
    (dats m 0 c).flushed 4 t = ((cfg0.win 4).blk t).view.read (Elt Ideal)
      (attnOf (V m c main_arg0) (V m c main_arg1)) := by
  rw [Value.flushed4]
  unfold out0_4
  rw [View.canon_unit_zero hz]
  simp only [View.ld_unit_zero (S := S1x512x128) hz, View.ld_unit_zero (S := S1x2048x128) hz]
  obtain ⟨e00, e01, e02, e10, e11, e12, e20, e21, e22, e40, e41, e42, e32, b30, b31⟩ := idx_facts t
  funext j
  obtain ⟨u, r, k, rfl⟩ : ∃ (u : Fin 1) (r : Fin 512) (k : Fin 2048), j = ix3 u r k := ⟨j 0, j 1, j 2, eq_ix3 j⟩
  show k0_pay3 (iblk m c 0 t) (iblk m c 1 t) (ix3 u r k)
      = attnOf (V m c main_arg0) (V m c main_arg1) (((cfg0.win 4).blk t).view.emb (ix3 u r k))
  have hu : u.val = 0 := by omega
  have hr : r.val < 512 := r.isLt
  have hb : win0_3.index t (0 : Fin 3) < 32 := by omega
  have hq : win0_3.index t (1 : Fin 3) * 512 + r.val < 2048 := by omega
  refine (Row.pay3_apply (iblk m c 0 t) (iblk m c 1 t) u r k).trans ?_
  refine Eq.trans ?_ (attnOf_at _ _ _ ⟨win0_3.index t (0 : Fin 3), hb⟩ ⟨win0_3.index t (1 : Fin 3) * 512 + r.val, hq⟩ k ?_ ?_ ?_).symm
  · refine attnRow_congr (funext fun d' => ?_) (funext fun k' => funext fun d' => ?_) rfl
    · refine iblk0_at m c t (ix3 (0 : Fin 1) r d') (ix3 ⟨win0_3.index t (0 : Fin 3), hb⟩ ⟨win0_3.index t (1 : Fin 3) * 512 + r.val, hq⟩ d') ?_ ?_ ?_
      · show win0_3.index t (0 : Fin 3) = win0_0.index t (0 : Fin 3) * 1 + 0; omega
      · show win0_3.index t (1 : Fin 3) * 512 + r.val = win0_0.index t (1 : Fin 3) * 512 + r.val; omega
      · show d'.val = win0_0.index t (2 : Fin 3) * 128 + d'.val; omega
    · refine iblk1_at m c t (ix3 (0 : Fin 1) k' d') (ix3 ⟨win0_3.index t (0 : Fin 3), hb⟩ k' d') ?_ ?_ ?_
      · show win0_3.index t (0 : Fin 3) = win0_1.index t (0 : Fin 3) * 1 + 0; omega
      · show k'.val = win0_1.index t (1 : Fin 3) * 2048 + k'.val; omega
      · show d'.val = win0_1.index t (2 : Fin 3) * 128 + d'.val; omega
  · show win0_4.index t (0 : Fin 3) * 1 + 1 * u.val = win0_3.index t (0 : Fin 3); omega
  · show win0_4.index t (1 : Fin 3) * 512 + 1 * r.val = win0_3.index t (1 : Fin 3) * 512 + r.val; omega
  · show win0_4.index t (2 : Fin 3) * 2048 + 1 * k.val = k.val; omega

/-! ## The blocks tile the arrays -/

/-- An index of the output array is in point `t`'s block iff each coordinate is in the block's range on its axis. -/
theorem mem_blk3 (t : Fin cfg0.N) (i : S32x2048x128.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v0_0).slice (win0_3.rect t)).set ↔ _
  rw [View.set_slice_whole, Rect.mem_set_unit]
  exact Iff.rfl

/-- The same for the weights array. -/
theorem mem_blk4 (t : Fin cfg0.N) (i : S32x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v0_1).slice (win0_4.rect t)).set ↔ _
  rw [View.set_slice_whole, Rect.mem_set_unit]
  exact Iff.rfl

/-- Every entry of the output array lies in some point's block: batch `b`, row block `q / 512`. -/
theorem cover3 (i : S32x2048x128.Idx) : ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 128 := (i 2).isLt
  obtain ⟨t, ht⟩ := idx_onto3 ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- Every entry of the weights array lies in some point's block. -/
theorem cover4 (i : S32x2048x2048.Idx) : ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, ht⟩ := idx_onto4 ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-! ## The arrays after the run -/

/-- The output array after the run is `outOf` of the arguments. -/
theorem final3 (c : Dev nD) : (dats m 0 c).arrAt 3 cfg0.N
    = outOf (m ((c : Thread nD τ).loc main_arg0)) (m ((c : Thread nD τ).loc main_arg1)) (m ((c : Thread nD τ).loc main_arg2)) :=
  (dats m 0 c).arrAt_eq_of_cover 3 _ (fun t _ => flushed3_eq m c t) cover3

/-- The weights array after the run is `attnOf` of the arguments. -/
theorem final4 (c : Dev nD) : (dats m 0 c).arrAt 4 cfg0.N
    = attnOf (m ((c : Thread nD τ).loc main_arg0)) (m ((c : Thread nD τ).loc main_arg1)) :=
  (dats m 0 c).arrAt_eq_of_cover 4 _ (fun t _ => flushed4_eq m c t) cover4

/-- THE KERNEL'S RUN, read: each result array at its whole-array function of the arguments, the arguments unchanged. -/
theorem run : θ_run defs (onTc (τ := τ) (main (F := Ideal))) ⟨m, fun _ => 0, ρ⟩ fun r => ∀ c : Dev nD,
      r.2.mem ((c : Thread nD τ).loc main_v0_0)
        = outOf (m ((c : Thread nD τ).loc main_arg0)) (m ((c : Thread nD τ).loc main_arg1)) (m ((c : Thread nD τ).loc main_arg2))
      ∧ r.2.mem ((c : Thread nD τ).loc main_v0_1)
        = attnOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Blocks

end
-- ==== Proof.RefRow.lean ====
/-
  What the reference computes, read one entry at a time, on the extended reals.

  Stage by stage over the reference's operations read at an index: the scaled scores of query row (b, r) are the spec's
  `score` of row `r` of batch `b` of the queries against batch `b` of the keys; the maximum over keys, taken once more
  against minus infinity as the reference does, is the row's maximum; the exponentials, their sum from zero, the
  quotient are the row's softmax; the comparison with the row's largest entry, read as a number and multiplied in, is
  the winner-take-all mask; the second product sums the masked weights against the values.
-/
import proofs.«169759_j15857019257096_2_alg».proof.Proof.Gen.ReferenceIdeal.Read
import proofs.«169759_j15857019257096_2_alg».proof.Proof.Spec
import proofs.«169759_j15857019257096_2_alg».proof.Proof.LibRowReduce

noncomputable section

open scoped BigOperators

namespace Cert.ReferenceIdeal.RefRow

open Cert.ReferenceIdeal Cert.ReferenceIdeal.Gen Cert.ReferenceIdeal.Read Idealize.ShloMosaic Idealize.ShloMosaic.ValueIdx Cert.Wta

variable (x0 x1 x2 : (⟨S32x2048x128, .f32⟩ : BufTy).Contents (Elt Ideal))

/-! ## Where each operation reads -/

theorem lidx0 (b : Fin 32) (r k : Fin 2048) (d : Fin 128) : lidx_main_v0 (ix3 b r k) d = ix3 b r d :=
  funext fun a => Fin.ext (by match a with | ⟨0, _⟩ => rfl | ⟨1, _⟩ => rfl | ⟨2, _⟩ => rfl)
theorem ridx0 (b : Fin 32) (r k : Fin 2048) (d : Fin 128) : ridx_main_v0 (ix3 b r k) d = ix3 b k d :=
  funext fun a => Fin.ext (by match a with | ⟨0, _⟩ => rfl | ⟨1, _⟩ => rfl | ⟨2, _⟩ => rfl)
theorem idx67 (b : Fin 32) (r k : Fin 2048) : idx_main_v6 (idx_main_v7 (ix3 b r k)) = ix2 b r :=
  funext fun a => Fin.ext (by match a with | ⟨0, _⟩ => rfl | ⟨1, _⟩ => rfl)
theorem idx1112 (b : Fin 32) (r k : Fin 2048) : idx_main_v11 (idx_main_v12 (ix3 b r k)) = ix2 b r :=
  funext fun a => Fin.ext (by match a with | ⟨0, _⟩ => rfl | ⟨1, _⟩ => rfl)
theorem idx1516 (b : Fin 32) (r k : Fin 2048) : idx_main_v15 (idx_main_v16 (ix3 b r k)) = ix2 b r :=
  funext fun a => Fin.ext (by match a with | ⟨0, _⟩ => rfl | ⟨1, _⟩ => rfl)
theorem idx10 (b : Fin 32) (r k : Fin 2048) : idx_main_v10 (ix2 b r) k = ix3 b r k :=
  funext fun a => Fin.ext (by match a with | ⟨0, _⟩ => rfl | ⟨1, _⟩ => rfl | ⟨2, _⟩ => rfl)
theorem lidx20 (b : Fin 32) (r : Fin 2048) (d : Fin 128) (k : Fin 2048) : lidx_main_v20 (ix3 b r d) k = ix3 b r k :=
  funext fun a => Fin.ext (by match a with | ⟨0, _⟩ => rfl | ⟨1, _⟩ => rfl | ⟨2, _⟩ => rfl)
theorem ridx20 (b : Fin 32) (r : Fin 2048) (d : Fin 128) (k : Fin 2048) : ridx_main_v20 (ix3 b r d) k = ix3 b k d :=
  funext fun a => Fin.ext (by match a with | ⟨0, _⟩ => rfl | ⟨1, _⟩ => rfl | ⟨2, _⟩ => rfl)

/-! ## The stages at (b, r, ·) -/

/-- The spec's scores of query row (b, r). -/
abbrev sc (b : Fin 32) (r : Fin 2048) : Fin 2048 → EReal := score (rowOf x0 b r) (matOf x1 b)

theorem v2_at (b : Fin 32) (r k : Fin 2048) : val_main_v2 (F := Ideal) x0 x1 (ix3 b r k) = sc x0 x1 b r k := by
  rw [val_main_v2_apply, val_main_v0_apply, val_main_v1_apply, val_main_cst_apply]
  simp only [lidx0, ridx0]
  rfl

theorem v3_at (b : Fin 32) (r : Fin 2048) : val_main_v3 (F := Ideal) x0 x1 (ix2 b r) = rowMax (sc x0 x1 b r) := by
  unfold val_main_v3
  refine (Cert.Lib.hostReduce_max_last3 _ _ reducesTo_S32x2048x2048_S32x2048_d2 (by decide) h_S_ b r).trans ?_
  have e : (fun k : Fin 2048 => val_main_v2 (F := Ideal) x0 x1 (ix3 b r k)) = sc x0 x1 b r := funext fun k => v2_at x0 x1 b r k
  rw [e]
  rfl

theorem v5_at (b : Fin 32) (r : Fin 2048) : val_main_v5 (F := Ideal) x0 x1 (ix2 b r) = rowMax (sc x0 x1 b r) := by
  rw [val_main_v5_apply, val_main_v4_apply, val_main_cst_1_apply, v3_at]
  exact max_seed_rowMax _

theorem v9_at (b : Fin 32) (r k : Fin 2048) : val_main_v9 (F := Ideal) x0 x1 (ix3 b r k) = expShift (sc x0 x1 b r) k := by
  rw [val_main_v9_apply, val_main_v8_apply, val_main_v7_apply, val_main_v6_apply, idx67, v5_at, v2_at]
  rfl

theorem v10_at (b : Fin 32) (r : Fin 2048) :
    val_main_v10 (F := Ideal) x0 x1 (ix2 b r) = ∑ k : Fin 2048, expShift (sc x0 x1 b r) k := by
  rw [val_main_v10_apply, val_main_cst_2_apply]
  simp only [idx10, v9_at]
  show Ideal.ofBits .f32 0x00000000#32 + _ = _
  rw [Ideal.ofBits_zero_f32, zero_add]

theorem v13_at (b : Fin 32) (r k : Fin 2048) : val_main_v13 (F := Ideal) x0 x1 (ix3 b r k) = soft (sc x0 x1 b r) k := by
  rw [val_main_v13_apply, val_main_v12_apply, val_main_v11_apply, idx1112, v10_at, v9_at]
  rfl

theorem v14_at (b : Fin 32) (r : Fin 2048) : val_main_v14 (F := Ideal) x0 x1 (ix2 b r) = rowMax (soft (sc x0 x1 b r)) := by
  unfold val_main_v14
  refine (Cert.Lib.hostReduce_max_last3 _ _ reducesTo_S32x2048x2048_S32x2048_d2 (by decide) h_S_ b r).trans ?_
  have e : (fun k : Fin 2048 => val_main_v13 (F := Ideal) x0 x1 (ix3 b r k)) = soft (sc x0 x1 b r) := funext fun k => v13_at x0 x1 b r k
  rw [e]
  rfl

/-- THE WEIGHTS at (b, r, k). -/
theorem v19_at (b : Fin 32) (r k : Fin 2048) : val_main_v19 (F := Ideal) x0 x1 (ix3 b r k) = attnRow (rowOf x0 b r) (matOf x1 b) k := by
  rw [val_main_v19_apply, val_main_v18_apply, val_main_v17_apply, val_main_v16_apply, val_main_v15_apply, idx1516, v14_at, v13_at]
  exact mul_indicator _ _

/-- THE OUTPUT at (b, r, d). -/
theorem v20_at (b : Fin 32) (r : Fin 2048) (d : Fin 128) :
    val_main_v20 (F := Ideal) x0 x1 x2 (ix3 b r d) = outRow (rowOf x0 b r) (matOf x1 b) (matOf x2 b) d := by
  rw [val_main_v20_apply]
  simp only [lidx20, ridx20, v19_at]
  rfl

/-! ## The two result arrays -/

theorem weights_eq : val_main_v19 (F := Ideal) x0 x1 = attnOf x0 x1 := by
  funext i
  obtain ⟨b, r, k, rfl⟩ : ∃ (b : Fin 32) (r k : Fin 2048), i = ix3 b r k := ⟨i 0, i 1, i 2, eq_ix3 i⟩
  exact v19_at x0 x1 b r k

theorem output_eq : val_main_v20 (F := Ideal) x0 x1 x2 = outOf x0 x1 x2 := by
  funext i
  obtain ⟨b, r, d, rfl⟩ : ∃ (b : Fin 32) (r : Fin 2048) (d : Fin 128), i = ix3 b r d := ⟨i 0, i 1, i 2, eq_ix3 i⟩
  exact v20_at x0 x1 x2 b r d

end Cert.ReferenceIdeal.RefRow

end
-- ==== Proof.lean ====
/-
  Winner-take-all attention: the tiled kernel against the whole-array reference, on the extended reals.

  Both programs compute, for every batch `b` and query row `r`, the scores `s k = (Σ_d Q[b,r,d] · K[b,k,d]) / √128`,
  their softmax over the 2048 keys, the softmax kept where it equals the row's largest entry and zero elsewhere
  (the weights, the second result), and the weights times the values `Σ_k w k · V[b,k,d]` (the output, the first
  result). The kernel does so on a 32 × 4 grid, 512 query rows of one batch at a time with that batch's keys and
  values whole; the reference on the whole arrays.

  They differ in three spellings, none of which needs a finite input:
  * the reference takes each row's maximum once more against minus infinity, which changes nothing since a maximum
    folded from minus infinity is already at least that;
  * the reference multiplies the softmax by the comparison read as 0 or 1 where the kernel selects between the
    softmax and zero: `x · 1 = x` and `x · 0 = 0` for every extended real;
  * the reference's row sum starts from a zero it adds, the kernel's does not.
  The products, maxima and sums themselves are the same sums and folds over the same index sets.

  The kernel's side: each stage of the body read at an entry (Proof/KernelRow.lean over Proof/KernelDots.lean), what a
  grid point writes back as a block of the whole-array functions and the blocks tiling both arrays (Proof/Blocks.lean,
  over the generated blockwise run). The reference's side: its operations read at an index one after the other
  (Proof/RefRow.lean over the generated run and read modules). Both meet in Proof/Spec.lean's `outOf` and `attnOf`.
  The three frames are the generated ones (the reference's is its generated run with the results dropped), and the
  idealization rewrote no operation.
-/
import proofs.«169759_j15857019257096_2_alg».proof.Defs
import proofs.«169759_j15857019257096_2_alg».proof.Proof.Gen.Kernel
import proofs.«169759_j15857019257096_2_alg».proof.Proof.Gen.Kernel.Frame
import proofs.«169759_j15857019257096_2_alg».proof.Proof.Gen.KernelIdeal
import proofs.«169759_j15857019257096_2_alg».proof.Proof.Gen.KernelIdeal.Frame
import proofs.«169759_j15857019257096_2_alg».proof.Proof.Gen.KernelIdeal.Value
import proofs.«169759_j15857019257096_2_alg».proof.Proof.Gen.ReferenceIdeal
import proofs.«169759_j15857019257096_2_alg».proof.Proof.Gen.ReferenceIdeal.Run
import proofs.«169759_j15857019257096_2_alg».proof.Proof.Gen.ReferenceIdeal.Read
import proofs.«169759_j15857019257096_2_alg».proof.Proof.Gen.Pre_finite_inputs
import proofs.«169759_j15857019257096_2_alg».proof.Proof.Blocks
import proofs.«169759_j15857019257096_2_alg».proof.Proof.RefRow

noncomputable section

namespace Cert.Proof

open Idealize.ShloMosaic Idealize.ShloMosaic.TcCoe Idealize.SL.Sem Cert.Wta

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, the kernel's two result arrays end at `outOf` and `attnOf` of them (the kernel's run,
    read) and so do the reference's (its run's two terms are those functions, stage by stage). -/
theorem algebraic : Cert.algebraic_KernelIdeal_ReferenceIdeal := by
  intro m ρ m' ρ' _ hagree
  refine ⟨fun c => outOf (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => attnOf (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v20_eq, Cert.ReferenceIdeal.RefRow.output_eq,
      (hagree c).1, (hagree c).2.1, (hagree c).2.2]
  · rw [(h c).2.1, Cert.ReferenceIdeal.Read.val_main_v19_eq, Cert.ReferenceIdeal.RefRow.weights_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
